-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S512x65536 : Shape := ⟨2, ![512, 65536]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S512x65536 : S_.BroadcastsInDim S512x65536 (![] : Fin 0 → Fin S512x65536.rank)
  reducesTo_S512x65536_S_d0_1 : S512x65536.ReducesTo [0, 1] S_

variable [Facts]

def fn {F : FTy → Type} [FloatOps F] (main_arg0 : FVec F S4096x512 .f32) (main_arg1 : FVec F S512x65536 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S512x65536 .f32 := Host.absf main_arg1
  let main_cst_0 : FVec F S_ .f32 := constant S_ .f32 0x7F800000#32
  let main_v5 : FVec F S512x65536 .f32 := broadcastInDim S512x65536 ![] bcast_S_S512x65536 main_cst_0
  let main_v6 : IVec S512x65536 1 := cmpf .olt main_v4 main_v5
  let main_c_1 : IVec S_ 1 := constantI S_ 1 1#1
  let main_v7 : IVec S_ 1 := (fun x v => Host.reduce IntOp.andi x v reducesTo_S512x65536_S_d0_1 h_S_) main_v6 main_c_1
  let main_v8 : IVec S_ 1 := andi main_v3 main_v7
  main_v8
-- ==== Kernel.lean ====
abbrev S4096x512 : Shape := ⟨2, ![4096, 512]⟩
abbrev S512x65536 : Shape := ⟨2, ![512, 65536]⟩
abbrev S4096x65536 : Shape := ⟨2, ![4096, 65536]⟩
abbrev S512x1280 : Shape := ⟨2, ![512, 1280]⟩
abbrev S4096x1280 : Shape := ⟨2, ![4096, 1280]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S512x65536, .f32⟩
  | .hbm, ⟨2, _⟩ => ⟨S4096x65536, .f32⟩
  | .local _ .vmem, ⟨0, _⟩ => ⟨S4096x512, .f32⟩
  | .local _ .vmem, ⟨1, _⟩ => ⟨S512x1280, .f32⟩
  | .local _ .vmem, ⟨2, _⟩ => ⟨S512x1280, .f32⟩
  | .local _ .vmem, ⟨3, _⟩ => ⟨S4096x1280, .f32⟩
  | .local _ .vmem, ⟨4, _⟩ => ⟨S4096x1280, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![52], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4096x512_S4096x512_0_0 : ∀ a, (![0, 0] : Fin 2 → Nat) a + S4096x512.size a ≤ S4096x512.size a
  h_S4096x512 : 0 < S4096x512.numel
  bitsLt_bf16_f32 : FTy.bits .bf16 < FTy.bits .f32
  inb_S512x1280_S512x1280_0_0 : ∀ a, (![0, 0] : Fin 2 → Nat) a + S512x1280.size a ≤ S512x1280.size a
  h_S512x1280 : 0 < S512x1280.numel
  inb_S4096x1280_S4096x1280_0_0 : ∀ a, (![0, 0] : Fin 2 → Nat) a + S4096x1280.size a ≤ S4096x1280.size a
  h_S4096x1280 : 0 < S4096x1280.numel
  dot_S4096x512_S512x1280_S4096x1280_1_0_0_1_n_n_wf : DotDims.WF S4096x512 S512x1280 S4096x1280 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S4096x512.size a
  hwx0_0 : ∀ i : grid0.Coords, EltTy.bits .f32 = 32 ∨ (Rect.block (s := S4096x512) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S512x1280.size a < S512x65536.size a
  hwx0_1 : ∀ i : grid0.Coords, EltTy.bits .f32 = 32 ∨ (Rect.unit (s := S512x65536) (fun a => cc0_transform_1 i a * S512x1280.size a) (fun a => (Pipeline.Clip.of (cc0_transform_1 i a) (S512x1280.size a) (S512x65536.size a)).extent (S512x1280.size a)) fun a => Pipeline.Clip.inb (Pipeline.Clip.ok_of (hstart0_1 i a))).WholeWords (EltTy.packing .f32)
  hwxs0_1 : ∀ i : grid0.Coords, EltTy.bits .f32 = 32 ∨ (Rect.unit (s := S512x1280) (fun _ => 0) (fun a => (Pipeline.Clip.of (cc0_transform_1 i a) (S512x1280.size a) (S512x65536.size a)).extent (S512x1280.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S4096x1280.size a < S4096x65536.size a
  hwx0_2 : ∀ i : grid0.Coords, EltTy.bits .f32 = 32 ∨ (Rect.unit (s := S4096x65536) (fun a => cc0_transform_2 i a * S4096x1280.size a) (fun a => (Pipeline.Clip.of (cc0_transform_2 i a) (S4096x1280.size a) (S4096x65536.size a)).extent (S4096x1280.size a)) fun a => Pipeline.Clip.inb (Pipeline.Clip.ok_of (hstart0_2 i a))).WholeWords (EltTy.packing .f32)
  hwxs0_2 : ∀ i : grid0.Coords, EltTy.bits .f32 = 32 ∨ (Rect.unit (s := S4096x1280) (fun _ => 0) (fun a => (Pipeline.Clip.of (cc0_transform_2 i a) (S4096x1280.size a) (S4096x65536.size a)).extent (S4096x1280.size a)) fun a => (Nat.zero_add _).trans_le (Pipeline.Clip.extent_le (Pipeline.Clip.ok_of (hstart0_2 i a)))).WholeWords (EltTy.packing .f32)

variable [Facts₀]

def dot_S4096x512_S512x1280_S4096x1280_1_0_0_1_n_n : DotDims S4096x512 S512x1280 S4096x1280 where
  lhsContracting := [1]
  rhsContracting := [0]
  lhsNonContracting := [0]
  rhsNonContracting := [1]
  lhsBatch := []
  rhsBatch := []
  wf := dot_S4096x512_S512x1280_S4096x1280_1_0_0_1_n_n_wf

abbrev win0_0 : Pipeline.Window sig grid0 :=
  Pipeline.Window.ofSpec (Memref.whole main_arg0) S4096x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S512x1280.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S4096x1280.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x512 : Shape := ⟨2, ![4096, 512]⟩
abbrev S512x65536 : Shape := ⟨2, ![512, 65536]⟩
abbrev S4096x65536 : Shape := ⟨2, ![4096, 65536]⟩

abbrev nBuf : Space → Nat
  | .hbm => 3
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x65536, .f32⟩
  | .hbm, ⟨2, _⟩ => ⟨S4096x65536, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S4096x512_S512x65536_S4096x65536_1_0_0_1_n_n_wf : DotDims.WF S4096x512 S512x65536 S4096x65536 [1] [0] [0] [1] [] []

variable [Facts₀]

def dot_S4096x512_S512x65536_S4096x65536_1_0_0_1_n_n : DotDims S4096x512 S512x65536 S4096x65536 where
  lhsContracting := [1]
  rhsContracting := [0]
  lhsNonContracting := [0]
  rhsNonContracting := [1]
  lhsBatch := []
  rhsBatch := []
  wf := dot_S4096x512_S512x65536_S4096x65536_1_0_0_1_n_n_wf

class Facts : Prop extends Facts₀ where

variable [Facts]
-- ==== Proof.KernelBody.lean ====
/-
  The body of the matrix-product kernel on any three whole staging buffers.

  One grid point loads the whole left block (4096 x 512) and the whole right block (512 x 1280),
  multiplies them into a zero accumulator, and stores the 4096 x 1280 product over the whole output
  buffer.  Whatever the output buffer held before is read once and discarded.  So from buffers
  holding x0, x1 and anything, the body ends with the first two unchanged and the third holding the
  product term of x0 and x1.  Nothing here depends on which float instance the values are read at.
-/
import proofs.«146652_g85856396247097_cont_9to1c4b_318_28_alg».proof.Proof.Gen.Kernel.Frame
import proofs.«146652_g85856396247097_cont_9to1c4b_318_28_alg».proof.Proof.Gen.Kernel.Skeleton
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The zero offsets of a whole-buffer access, however they are spelt. -/
theorem off_zero : (![0, 0] : Fin 2 → Nat) = fun _ => 0 := funext fun a => by fin_cases a <;> rfl

set_option maxHeartbeats 1000000 in
/-- The body on whole staging memrefs: the inputs' contents are kept and the output's buffer ends at
    the product term of the two inputs' contents. -/
theorem sound_kernel (c : Dev nD) (E : Set ℕ) (i : grid0.Coords)
    (arg1 : Memref sig .tc .vmem S4096x512 .f32) (harg1 : arg1.IsWhole)
    (arg2 : Memref sig .tc .vmem S512x1280 .f32) (harg2 : arg2.IsWhole)
    (arg3 : Memref sig .tc .vmem S4096x1280 .f32) (harg3 : arg3.IsWhole)
    (x0 : Vec F S4096x512 .f32) (x1 : Vec F S512x1280 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
              ∗ owns (c : Thread nD τ) arg3 fullShare (k0_pay1 x0 x1)) -∗ K ⟨⟩))
      ⊢ wp frame (wpE (defs₀ (F := F)) Variants.none c none) E (cc0__mm_kernel i arg1 harg1 arg2 harg2 arg3 harg3) K := by
  simp only [cc0__mm_kernel_eq_skeleton]; unfold cc0__mm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _,
      View.mem_set_unit_zero off_zero inb_S4096x1280_S4096x1280_0_0 y⟩),
    View.canon_unit_zero off_zero]
  simp only [View.readAt_eq_ld, View.ld_unit_zero (S := S4096x512) off_zero, View.ld_unit_zero (S := S512x1280) off_zero]

end Cert.Kernel.Hand

end
-- ==== Proof.KernelFrame.lean ====
/-
  The frame of the kernel as printed, at any float instance.

  The frame claim says nothing about the result; it asks only that the run ends, faults nowhere and
  leaves the two argument arrays as they were.  At the word level that is all that can be said of
  this kernel through its last grid point: there the right operand's block overhangs the array, its
  staging buffer holds unnamed words past the array's end, and the matrix unit's word-level term for
  a column is a function of the whole right operand.  So the proof data forgets the result's
  window — its buffer is handed to the body holding anything and taken back holding anything — and
  names only the two inputs': the left operand's buffer at the whole left array, the right
  operand's at its block on the columns inside the array.
-/
import proofs.«146652_g85856396247097_cont_9to1c4b_318_28_alg».proof.Proof.KernelBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The window whose buffer the frame never reads back: the result's. -/
def forgets : Fin 3 → Bool := fun w => w.val == 2

/-- The right operand's block at point t, filled out past the array's end with zeros. -/
def rblk (c : Dev nD) (t : Fin cfg0.N) : S512x1280.Idx → Elt F .f32 :=
  win0_1.fill (grid0.coords t) (fun _ => Scalar.ofBits .f32 0#32) (iblk m c 1 t)

/-- The proof data of the one pipeline on core c: the arrays as the region finds them; after the body at
    point t the left operand's buffer at its block, the right operand's at its block filled out, the
    result's unnamed; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => rblk m c t
    | ⟨2, h⟩ => Pipeline.Dat.unnamed (cfg := cfg0) ⟨2, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = rblk m c t := by dsimp only [dats]

/-- The left operand's buffer holds the whole left array at every point, fetched there or not. -/
theorem before0 (c : Dev nD) (t : Fin cfg0.N) (d) : (dats m 0 c).before 0 t d = iblk m c 0 t :=
  before0_0_of m (dats m 0 c) (A_eq m c 0) (after0 m c) t d

/-- The right operand's buffer is fetched at every point: its block on the columns inside the array,
    anything past them. -/
theorem before1 (c : Dev nD) (t : Fin cfg0.N) (d) :
    (dats m 0 c).before 1 t d = win0_1.fill (grid0.coords t) d (iblk m c 1 t) := by
  unfold Dat.before
  rw [if_pos (fetch0_1 t)]
  unfold Dat.fetched Dat.blockOf iblk
  rw [A_eq]

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ X, owns (c : Thread nD τ) (st0_2 t) fullShare X))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        (win0_1.fill (grid0.coords t) d (win0_1.cut (grid0.coords t) ((dats m 0 c).after 1 t))))
    ∗ (∃ X, owns (c : Thread nD τ) (st0_2 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1]
  iintro ⟨HΦ, Ho, ⟨%d0, H0⟩, ⟨%d1, H1⟩, ⟨%d2, H2⟩⟩
  iapply (sound_kernel (F := F) c Set.univ (grid0.coords t) _ _ _ _ _ _ (iblk m c 0 t)
    (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1
    unfold rblk
    rw [Window.cut_fill]
    iexact H1
  · iexists _; iexact H2

/-- The library's body obligation, at every point, the result's window forgotten. -/
theorem body_obligation (c : Dev nD) :
    BodyObligationLoose (dats (F := F) m 0 c) (defs₀ (F := F)) Variants.none () Set.univ forgets := fun t => by
  rw [bigSep_W0, bigSep_W0]
  exact sound_body m c t

/-! ## The run and the frame -/

set_option backward.isDefEq.respectTransparency.types false in
/-- Every weakly fair execution of @main terminates, and every final state has each input array of the
    pipeline at its entry contents (nothing is stated of the result). -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget)
    (hshare := fun c => ((dats m 0 c).toRForget forgets).share_full fun _ => rfl)
    (howed := fun _ _ => rfl) (V := V m) (hmain := hmain m Variants.none) (hA := A_eq m) (hΦ := fun _ _ => rfl)

/-- The frame: the run ends, and the two argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(Eq.mp (congrFun (((dats m 0 c).toRForget forgets).ArrAt_in 0 rfl _) _) ((h c).1 0)).trans
        ((A_eq m c 0).trans (V_main_arg0 m c)),
      (Eq.mp (congrFun (((dats m 0 c).toRForget forgets).ArrAt_in 1 rfl _) _) ((h c).1 1)).trans
        ((A_eq m c 1).trans (V_main_arg1 m c))⟩) (run_main m ρ)

end Cert.Kernel.Hand

end
-- ==== Proof.IdealBody.lean ====
/-
  The body of the matrix-product kernel on any three whole staging buffers.

  One grid point loads the whole left block (4096 x 512) and the whole right block (512 x 1280),
  multiplies them into a zero accumulator, and stores the 4096 x 1280 product over the whole output
  buffer.  Whatever the output buffer held before is read once and discarded.  So from buffers
  holding x0, x1 and anything, the body ends with the first two unchanged and the third holding the
  product term of x0 and x1.  Nothing here depends on which float instance the values are read at.
-/
import proofs.«146652_g85856396247097_cont_9to1c4b_318_28_alg».proof.Proof.Gen.KernelIdeal.Frame
import proofs.«146652_g85856396247097_cont_9to1c4b_318_28_alg».proof.Proof.Gen.KernelIdeal.Skeleton
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The zero offsets of a whole-buffer access, however they are spelt. -/
theorem off_zero : (![0, 0] : Fin 2 → Nat) = fun _ => 0 := funext fun a => by fin_cases a <;> rfl

set_option maxHeartbeats 1000000 in
/-- The body on whole staging memrefs: the inputs' contents are kept and the output's buffer ends at
    the product term of the two inputs' contents. -/
theorem sound_kernel (c : Dev nD) (E : Set ℕ) (i : grid0.Coords)
    (arg1 : Memref sig .tc .vmem S4096x512 .f32) (harg1 : arg1.IsWhole)
    (arg2 : Memref sig .tc .vmem S512x1280 .f32) (harg2 : arg2.IsWhole)
    (arg3 : Memref sig .tc .vmem S4096x1280 .f32) (harg3 : arg3.IsWhole)
    (x0 : Vec F S4096x512 .f32) (x1 : Vec F S512x1280 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
              ∗ owns (c : Thread nD τ) arg3 fullShare (k0_pay1 x0 x1)) -∗ K ⟨⟩))
      ⊢ wp frame (wpE (defs₀ (F := F)) Variants.none c none) E (cc0__mm_kernel i arg1 harg1 arg2 harg2 arg3 harg3) K := by
  simp only [cc0__mm_kernel_eq_skeleton]; unfold cc0__mm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _,
      View.mem_set_unit_zero off_zero inb_S4096x1280_S4096x1280_0_0 y⟩),
    View.canon_unit_zero off_zero]
  simp only [View.readAt_eq_ld, View.ld_unit_zero (S := S4096x512) off_zero, View.ld_unit_zero (S := S512x1280) off_zero]

end Cert.KernelIdeal.Hand

end
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.Spec.lean ====
/-
  The specification: the product of a 4096 x 512 matrix and a 512 x 65536 matrix over the extended
  reals.  Entry (r, c) is the sum over the 512 contracted positions k of a(r, k) * b(k, c).
-/
import Idealize.ShloMosaic.PureOps.Ideal
import Idealize.ShloMosaic.Lib.ValueIdx

noncomputable section

namespace Cert.Spec

open Idealize.ShloMosaic Idealize.ShloMosaic.ValueIdx
open scoped BigOperators

/-- The matrix product, entry by entry. -/
def prod (a : FVec Ideal ⟨2, ![4096, 512]⟩ .f32) (b : FVec Ideal ⟨2, ![512, 65536]⟩ .f32) :
    FVec Ideal ⟨2, ![4096, 65536]⟩ .f32 :=
  fun i => ∑ k : Fin 512, a (ix2 (n0 := 4096) (i 0) k) * b (ix2 (n1 := 65536) k (i 1))

end Cert.Spec

end
-- ==== Proof.IdealProduct.lean ====
/-
  The kernel's product term read at an index, at the ideal values.

  The body's one payload is the product of the left block (4096 x 512) and the right block
  (512 x 1280) into a zero accumulator, each operand first narrowed to bf16.  Over the extended reals
  a change of float format is the identity and the product at row r, column q is the plain sum over
  k of left(r, k) * right(k, q).  In particular column q of the product depends on column q of the
  right operand only: two right operands that agree on a column give products that agree on it.
-/
import proofs.«146652_g85856396247097_cont_9to1c4b_318_28_alg».proof.Proof.Gen.KernelIdeal.Skeleton
import proofs.«146652_g85856396247097_cont_9to1c4b_318_28_alg».proof.Proof.LibDotRows
import proofs.«146652_g85856396247097_cont_9to1c4b_318_28_alg».proof.Proof.Spec
import Idealize.ShloMosaic.PureOps.Ideal.Laws
import Idealize.ShloMosaic.Lib.ValueIdx

noncomputable section

namespace Cert.KernelIdeal.Product

open Cert.KernelIdeal Cert.KernelIdeal.Gen
open Idealize.ShloMosaic Idealize.ShloMosaic.ValueIdx
open scoped BigOperators

/-- Row r, column q of the body's product: the sum over the 512 contracted positions. -/
theorem pay_apply (x0 : Vec Ideal S4096x512 .f32) (x1 : Vec Ideal S512x1280 .f32) (r : Fin 4096) (q : Fin 1280) :
    k0_pay1 (F := Ideal) x0 x1 (ix2 r q) = ∑ k : Fin 512, x0 (ix2 r k) * x1 (ix2 k q) := by
  unfold k0_pay1
  exact matmul_zero_rows dot_S4096x512_S512x1280_S4096x1280_1_0_0_1_n_n none rfl rfl
    (fun _ _ => rfl) (fun _ _ => rfl) (fun _ _ => rfl) (fun _ _ => rfl)
    (truncf .bf16 x0 bitsLt_bf16_f32) (truncf .bf16 x1 bitsLt_bf16_f32) r q

/-- A column of the product depends on that column of the right operand only. -/
theorem pay_congr (x0 : Vec Ideal S4096x512 .f32) (y y' : Vec Ideal S512x1280 .f32) (r : Fin 4096) (q : Fin 1280)
    (h : ∀ k : Fin 512, y (ix2 k q) = y' (ix2 k q)) :
    k0_pay1 (F := Ideal) x0 y (ix2 r q) = k0_pay1 (F := Ideal) x0 y' (ix2 r q) := by
  rw [pay_apply, pay_apply]
  exact Finset.sum_congr rfl fun k _ => by rw [h k]

/-- An entry of the body's product is the specification's entry, once the row of the left block it reads
    is a row of the left array and the column of the right block it reads is a column of the right
    array. -/
theorem pay_eq_prod (x0 : Vec Ideal S4096x512 .f32) (x1 : Vec Ideal S512x1280 .f32)
    (A : FVec Ideal ⟨2, ![4096, 512]⟩ .f32) (B : FVec Ideal ⟨2, ![512, 65536]⟩ .f32)
    (r : Fin 4096) (q : Fin 1280) (cc : Fin 65536)
    (hl : ∀ k : Fin 512, x0 (ix2 r k) = A (ix2 r k)) (hr : ∀ k : Fin 512, x1 (ix2 k q) = B (ix2 k cc)) :
    k0_pay1 (F := Ideal) x0 x1 (ix2 r q) = Cert.Spec.prod A B (ix2 r cc) := by
  rw [pay_apply]
  show _ = ∑ k : Fin 512, A (ix2 r k) * B (ix2 k cc)
  exact Finset.sum_congr rfl fun k _ => by rw [hl k, hr k]

end Cert.KernelIdeal.Product

end
-- ==== Proof.IdealFrame.lean ====
/-
  The idealized kernel's run, with every array named.

  The grid has 52 points; point t handles columns 1280 t .. 1280 t + 1279 of the right operand and of
  the result.  65536 = 51 * 1280 + 256, so the last point's block overhangs both arrays: only its
  first 256 columns lie inside.  The fetch of the right operand's block first overwrites the whole
  staging buffer with words nothing names and then lands the columns inside the array; the
  write-back of the result's block writes only the columns inside the array.

  So what the body finds in the right operand's buffer is the block filled out, past the array's
  end, with anything.  What it leaves in the result's buffer is the product of the left block with
  that.  The columns past the array's end of the product are not determined — but they are never
  written back, and the columns inside the array do not depend on the filler, because a column of a
  product depends on that column of the right operand only.  That is all the loop asks of a window
  whose blocks overhang: the buffer's contents on the part its transfers move.

  The proof data names, after the body at point t: the left operand's buffer at its block (the whole
  array), the right operand's at its block filled out with zeros, the result's at the product of
  those two.
-/
import proofs.«146652_g85856396247097_cont_9to1c4b_318_28_alg».proof.Proof.IdealBody
import proofs.«146652_g85856396247097_cont_9to1c4b_318_28_alg».proof.Proof.IdealProduct

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕀" => MT nD τ sig Unit (Elt Ideal) ℕ (UR sig nD τ) ℕ

variable (m : (ℓ : Loc nD τ sig) → Buf (Elt Ideal) ℓ) (ρ : Dev nD → PrngReg)

/-! ## The extents the transfers move, over the grid -/

/-- Every transfer of the right operand moves all 512 rows of its block, -/
theorem rows_moved : ∀ t : Fin cfg0.N, win0_1.xsize (grid0.coords t) 0 = 512 :=
  (by decide +kernel : ∀ t : Fin grid0.N, win0_1.xsize (grid0.coords t) 0 = 512)
/-- and as many columns as the result's write-back at the same point moves. -/
theorem cols_moved : ∀ t : Fin cfg0.N, win0_1.xsize (grid0.coords t) 1 = win0_2.xsize (grid0.coords t) 1 :=
  (by decide +kernel : ∀ t : Fin grid0.N, win0_1.xsize (grid0.coords t) 1 = win0_2.xsize (grid0.coords t) 1)

/-! ## The moved columns of a product do not see the filler -/

/-- The part of the product that the result's write-back moves is the same whatever fills the right
    operand's buffer past the array's end. -/
theorem cut_product_congr (t : Fin cfg0.N) (x0 : Vec Ideal S4096x512 .f32) (d d' : S512x1280.Idx → Elt Ideal .f32)
    (g : (win0_1.xblock (grid0.coords t)).Idx → Elt Ideal .f32) :
    win0_2.cut (grid0.coords t) (k0_pay1 (F := Ideal) x0 (win0_1.fill (grid0.coords t) d g))
      = win0_2.cut (grid0.coords t) (k0_pay1 (F := Ideal) x0 (win0_1.fill (grid0.coords t) d' g)) := by
  funext j
  show k0_pay1 (F := Ideal) x0 _ (win0_2.xinj (grid0.coords t) j) = k0_pay1 (F := Ideal) x0 _ (win0_2.xinj (grid0.coords t) j)
  rw [eq_ix2 (win0_2.xinj (grid0.coords t) j)]
  refine Product.pay_congr x0 _ _ _ _ fun k => ?_
  have hm : win0_1.moved (grid0.coords t) (ix2 k ((win0_2.xinj (grid0.coords t) j) 1)) = true :=
    (win0_1.moved_iff _ _).mpr fun a => by
      match a with
      | ⟨0, _⟩ => show k.val < win0_1.xsize (grid0.coords t) 0; rw [rows_moved t]; exact k.isLt
      | ⟨1, _⟩ => show (j 1).val < win0_1.xsize (grid0.coords t) 1; rw [cols_moved t]; exact (j 1).isLt
  unfold Window.fill
  rw [dif_pos hm, dif_pos hm]

/-! ## The proof data -/

/-- The right operand's block at point t, filled out past the array's end with zeros. -/
def rblk (c : Dev nD) (t : Fin cfg0.N) : S512x1280.Idx → Elt Ideal .f32 :=
  win0_1.fill (grid0.coords t) (fun _ => Scalar.ofBits (F := Ideal) .f32 0#32) (iblk m c 1 t)

/-- The proof data of the one pipeline on core c: the arrays as the region finds them; after the body at
    point t the left operand's buffer at its block, the right operand's at its block filled out, the
    result's at their product; the class's invariant; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => rblk m c t
    | ⟨2, _⟩ => k0_pay1 (F := Ideal) (iblk m c 0 t) (rblk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = rblk m c t := by dsimp only [dats]
theorem after2 (c : Dev nD) (t : Fin cfg0.N) :
    (dats m 0 c).after 2 t = k0_pay1 (F := Ideal) (iblk m c 0 t) (rblk m c t) := by dsimp only [dats]

/-- The left operand's buffer holds the whole left array at every point, fetched there or not. -/
theorem before0 (c : Dev nD) (t : Fin cfg0.N) (d) : (dats m 0 c).before 0 t d = iblk m c 0 t :=
  before0_0_of m (dats m 0 c) (A_eq m c 0) (after0 m c) t d

/-- The right operand's buffer is fetched at every point: its block on the columns inside the array,
    anything past them. -/
theorem before1 (c : Dev nD) (t : Fin cfg0.N) (d) :
    (dats m 0 c).before 1 t d = win0_1.fill (grid0.coords t) d (iblk m c 1 t) := by
  unfold Dat.before
  rw [if_pos (fetch0_1 t)]
  unfold Dat.fetched Dat.blockOf iblk
  rw [A_eq]

/-- The result's buffer is fresh at every point: the point before wrote it back. -/
theorem before2 (c : Dev nD) (t : Fin cfg0.N) (d) : (dats m 0 c).before 2 t d = d :=
  (dats m 0 c).before_out_reset 2 rfl t (by
    by_cases h : t.val = 0
    · exact .inl h
    · exact .inr ⟨h, flush0_2 _⟩) d

/-! ## The body obligation -/

/-- What the body is called with at point t, the windows one by one, -/
def bodyPre (c : Dev nD) (t : Fin cfg0.N) : sProp 𝕀 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it hands back: the left operand's buffer at what the data names, the two overhanging
    windows' buffers at what the data names on the part their transfers move. -/
def bodyPost (c : Dev nD) (t : Fin cfg0.N) : sProp 𝕀 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        (win0_1.fill (grid0.coords t) d (win0_1.cut (grid0.coords t) ((dats m 0 c).after 1 t))))
    ∗ (∃ d, owns (c : Thread nD τ) (st0_2 t) fullShare
        (win0_2.fill (grid0.coords t) d (win0_2.cut (grid0.coords t) ((dats m 0 c).after 2 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel (F := Ideal) c Set.univ (grid0.coords t) _ _ _ _ _ _ (iblk m c 0 t)
    (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1
    unfold rblk
    rw [Window.cut_fill]
    iexact H1
  · iexists k0_pay1 (F := Ideal) (iblk m c 0 t) (win0_1.fill (grid0.coords t) d1 (iblk m c 1 t))
    unfold rblk
    rw [Window.fill_congr_cut win0_2 (grid0.coords t) (cut_product_congr t (iblk m c 0 t) d1 _ (iblk m c 1 t))]
    iexact H2

/-- The library's body obligation, at every point. -/
theorem body_obligation (c : Dev nD) :
    BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution of the idealized kernel terminates, and every final state has each
    array of the pipeline at what the library computes from the proof data. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

end Cert.KernelIdeal.Hand

end
-- ==== Proof.IdealValue.lean ====
/-
  The idealized kernel's result array is the product of its two argument arrays.

  Point t writes back the part inside the array of what the body left in the result's buffer: rows
  0 .. 4095 and columns 1280 t .. 1280 t + 1279, cut at column 65535.  Entry (r, q) of the buffer is the
  sum over k of the left block at (r, k) times the right block at (k, q); the left block is the whole
  left array, and column q of the right block — a column inside the array — is column 1280 t + q of
  the right array.  So what point t writes back is block t of the product of the two arrays.  Column
  c of the result lies in the block of point c / 1280, so the 52 blocks cover the array, and the
  array ends holding the product.
-/
import proofs.«146652_g85856396247097_cont_9to1c4b_318_28_alg».proof.Proof.IdealFrame
import proofs.«146652_g85856396247097_cont_9to1c4b_318_28_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ) (ρ : Dev nD → PrngReg)

/-! ## Where each window's block sits, over the grid -/

/-- The left operand's block is always block (0, 0); the right operand's and the result's blocks at
    point t are block (0, t); the result's write-back moves all 4096 rows and the columns of its block
    that lie inside the array. -/
theorem grid_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_2.xsize (grid0.coords t) (0 : Fin 2) = 4096
    ∧ win0_2.xsize (grid0.coords t) (1 : Fin 2) = min 1280 (65536 - 1280 * t.val) :=
  (by decide +kernel : ∀ t : Fin grid0.N, _)

/-! ## The two input blocks read at an index -/

/-- The left block is the left array. -/
theorem lblk_apply (c : Dev nD) (t : Fin cfg0.N) (r : Fin 4096) (k : Fin 512) :
    iblk m c 0 t (ix2 r k) = V m c main_arg0 (ix2 r k) := by
  obtain ⟨e0, e1, -⟩ := grid_facts t
  show V m c main_arg0 (((cfg0.win 0).blk t).view.emb (ix2 r k)) = V m c main_arg0 (ix2 r k)
  refine congrArg _ (funext fun a => Fin.ext ?_)
  match a with
  | ⟨0, _⟩ => show win0_0.index t (0 : Fin 2) * 4096 + 1 * r.val = r.val; omega
  | ⟨1, _⟩ => show win0_0.index t (1 : Fin 2) * 512 + 1 * k.val = k.val; omega

/-- A column of the right block that the transfers move is a column of the right array. -/
theorem rblk_apply (c : Dev nD) (t : Fin cfg0.N) (k : Fin 512) (q : Fin 1280)
    (hq : q.val < win0_2.xsize (grid0.coords t) 1) (hb : t.val * 1280 + q.val < 65536) :
    rblk m c t (ix2 k q) = V m c main_arg1 (ix2 k (⟨t.val * 1280 + q.val, hb⟩ : Fin 65536)) := by
  obtain ⟨-, -, e2, e3, -⟩ := grid_facts t
  have hm : win0_1.moved (grid0.coords t) (ix2 k q) = true :=
    (win0_1.moved_iff _ _).mpr fun a => by
      match a with
      | ⟨0, _⟩ => show k.val < win0_1.xsize (grid0.coords t) 0; rw [rows_moved t]; exact k.isLt
      | ⟨1, _⟩ => show q.val < win0_1.xsize (grid0.coords t) 1; rw [cols_moved t]; exact hq
  unfold rblk Window.fill
  rw [dif_pos hm]
  show V m c main_arg1 (((cfg0.win 1).blk t).view.emb _) = _
  refine congrArg _ (funext fun a => Fin.ext ?_)
  match a with
  | ⟨0, _⟩ => show win0_1.index t (0 : Fin 2) * 512 + 1 * k.val = k.val; omega
  | ⟨1, _⟩ => show win0_1.index t (1 : Fin 2) * 1280 + 1 * q.val = t.val * 1280 + q.val; omega

/-! ## What a point writes back -/

/-- The write-back at point t moves at most 4096 rows and 1280 columns, and the columns it moves land
    inside the array. -/
theorem moved_bounds (t : Fin cfg0.N) (j : (win0_2.xblock (grid0.coords t)).Idx) :
    (j 0).val < 4096 ∧ (j 1).val < 1280 ∧ t.val * 1280 + (j 1).val < 65536 := by
  obtain ⟨-, -, -, -, -, -, e6, e7⟩ := grid_facts t
  have h0 : (j 0).val < win0_2.xsize (grid0.coords t) (0 : Fin 2) := (j 0).isLt
  have h1 : (j 1).val < win0_2.xsize (grid0.coords t) (1 : Fin 2) := (j 1).isLt
  omega

/-- Where block t of the result puts its entry j: row j 0, column 1280 t + j 1. -/
theorem out_emb (t : Fin cfg0.N) (j : (win0_2.xblock (grid0.coords t)).Idx)
    (hj0 : (j 0).val < 4096) (hb : t.val * 1280 + (j 1).val < 65536) :
    (win0_2.blk t).view.emb j
      = ix2 (⟨(j 0).val, hj0⟩ : Fin 4096) (⟨t.val * 1280 + (j 1).val, hb⟩ : Fin 65536) := by
  obtain ⟨-, -, -, -, e4, e5, -⟩ := grid_facts t
  funext a; apply Fin.ext
  match a with
  | ⟨0, _⟩ => show win0_2.index t (0 : Fin 2) * 4096 + 1 * (j 0).val = (j 0).val; omega
  | ⟨1, _⟩ => show win0_2.index t (1 : Fin 2) * 1280 + 1 * (j 1).val = t.val * 1280 + (j 1).val; omega

/-- The same entry as an index of the result's staging buffer: row j 0, column j 1. -/
theorem out_xinj (t : Fin cfg0.N) (j : (win0_2.xblock (grid0.coords t)).Idx)
    (hj0 : (j 0).val < 4096) (hq : (j 1).val < 1280) :
    win0_2.xinj (grid0.coords t) j = ix2 (⟨(j 0).val, hj0⟩ : Fin 4096) (⟨(j 1).val, hq⟩ : Fin 1280) := by
  funext a; apply Fin.ext
  match a with
  | ⟨0, _⟩ => rfl
  | ⟨1, _⟩ => rfl

/-- Entry j of what point t leaves on the part the write-back moves is the product's entry at the
    array index block t puts j at. -/
theorem flushed_entry (c : Dev nD) (t : Fin cfg0.N) (j : (win0_2.xblock (grid0.coords t)).Idx) :
    k0_pay1 (F := Ideal) (iblk m c 0 t) (rblk m c t) (win0_2.xinj (grid0.coords t) j)
      = Cert.Spec.prod (V m c main_arg0) (V m c main_arg1) ((win0_2.blk t).view.emb j) := by
  obtain ⟨hj0, hq, hb⟩ := moved_bounds t j
  rw [out_emb t j hj0 hb]
  refine (congrArg (k0_pay1 (F := Ideal) (iblk m c 0 t) (rblk m c t)) (out_xinj t j hj0 hq)).trans ?_
  exact Product.pay_eq_prod (iblk m c 0 t) (rblk m c t) (V m c main_arg0) (V m c main_arg1)
    ⟨(j 0).val, hj0⟩ ⟨(j 1).val, hq⟩ ⟨t.val * 1280 + (j 1).val, hb⟩
    (fun k => lblk_apply m c t ⟨(j 0).val, hj0⟩ k) (fun k => rblk_apply m c t k ⟨(j 1).val, hq⟩ (j 1).isLt hb)

/-- What point t writes back is block t of the product of the two argument arrays. -/
theorem flushed_eq (c : Dev nD) (t : Fin cfg0.N) :
    (dats m 0 c).flushed 2 t
      = ((cfg0.win 2).blk t).view.read (Elt Ideal) (Cert.Spec.prod (V m c main_arg0) (V m c main_arg1)) := by
  show (cfg0.win 2).cut (grid0.coords t) ((dats m 0 c).after 2 t) = _
  rw [after2]
  exact funext fun j => flushed_entry m c t j

/-! ## The blocks cover the array -/

/-- An index of the result array is in point t's block iff each coordinate is in the block's range,
    cut at the array's end. -/
theorem mem_out_blk (t : Fin cfg0.N) (i : S4096x65536.Idx) :
    i ∈ ((cfg0.win 2).blk t).view.set ↔ ∀ a : Fin 2, win0_2.index t a * S4096x1280.size a ≤ (i a).val
      ∧ (i a).val < win0_2.index t a * S4096x1280.size a + win0_2.xsize (grid0.coords t) a := by
  show i ∈ ((View.whole main_v0).slice (win0_2.rect t)).set ↔ _
  rw [View.set_slice_whole, Rect.mem_set_unit]
  exact Iff.rfl

/-- Column c of the result lies in the block of point c / 1280. -/
theorem covered (i : S4096x65536.Idx) :
    ∃ t : Fin cfg0.N, (cfg0.win 2).flush t = true ∧ i ∈ ((cfg0.win 2).blk t).view.set := by
  have h0 : (i 0).val < 4096 := (i 0).isLt
  have h1 : (i 1).val < 65536 := (i 1).isLt
  obtain ⟨t, ht⟩ : ∃ t : Fin cfg0.N, t.val = (i 1).val / 1280 :=
    ⟨⟨(i 1).val / 1280, by show _ < grid0.N; rw [N_0]; omega⟩, rfl⟩
  obtain ⟨-, -, -, -, e4, e5, e6, e7⟩ := grid_facts t
  refine ⟨t, flush0_2 t, (mem_out_blk t i).mpr fun a => ?_⟩
  match a with
  | ⟨0, _⟩ =>
    show win0_2.index t (0 : Fin 2) * 4096 ≤ (i 0).val
      ∧ (i 0).val < win0_2.index t (0 : Fin 2) * 4096 + win0_2.xsize (grid0.coords t) (0 : Fin 2)
    omega
  | ⟨1, _⟩ =>
    show win0_2.index t (1 : Fin 2) * 1280 ≤ (i 1).val
      ∧ (i 1).val < win0_2.index t (1 : Fin 2) * 1280 + win0_2.xsize (grid0.coords t) (1 : Fin 2)
    omega

/-! ## The array after the run, and the run read at the arrays -/

/-- The result array ends holding the product of the two argument arrays. -/
theorem final (c : Dev nD) :
    (dats m 0 c).arrAt 2 cfg0.N = Cert.Spec.prod (V m c main_arg0) (V m c main_arg1) :=
  (dats m 0 c).arrAt_eq_of_cover 2 _ (fun t _ => flushed_eq m c t) covered

/-- Every weakly fair execution of the idealized kernel terminates with the result array at the
    product of the argument arrays and the argument arrays as they were. -/
theorem run : θ_run defs (onTc (τ := τ) (main (F := Ideal))) ⟨m, fun _ => 0, ρ⟩ fun r => ∀ c : Dev nD,
      r.2.mem ((c : Thread nD τ).loc main_v0)
        = Cert.Spec.prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Hand

end
-- ==== Proof.RefValue.lean ====
/-
  The reference computes the specification.

  The reference is one host matrix product contracting the left operand's columns with the right
  operand's rows.  At the ideal values its entry (r, c) is the sum over k of left(r, k) * right(k, c):
  the specification's entry, once the operand indices of the contraction are written by coordinates.
-/
import proofs.«146652_g85856396247097_cont_9to1c4b_318_28_alg».proof.Proof.Gen.ReferenceIdeal.Read
import proofs.«146652_g85856396247097_cont_9to1c4b_318_28_alg».proof.Proof.Spec

noncomputable section

namespace Cert.RefValue

open Cert.ReferenceIdeal Cert.ReferenceIdeal.Read
open Idealize.ShloMosaic Idealize.ShloMosaic.ValueIdx
open scoped BigOperators

/-- The reference's result, as a function of its two arguments, is their product. -/
theorem ref_eq (x0 : (⟨S4096x512, .f32⟩ : BufTy).Contents (Elt Ideal)) (x1 : (⟨S512x65536, .f32⟩ : BufTy).Contents (Elt Ideal)) :
    val_main_v0 (F := Ideal) x0 x1 = Cert.Spec.prod x0 x1 := by
  funext i
  rw [val_main_v0_apply]
  have el : ∀ k : Fin 512, lidx_main_v0 i k = ix2 (n0 := 4096) (i 0) k := fun k => funext fun a => by
    match a with
    | ⟨0, _⟩ => rfl
    | ⟨1, _⟩ => rfl
  have er : ∀ k : Fin 512, ridx_main_v0 i k = ix2 (n1 := 65536) k (i 1) := fun k => funext fun a => by
    match a with
    | ⟨0, _⟩ => rfl
    | ⟨1, _⟩ => rfl
  simp only [el, er]
  rfl

end Cert.RefValue

end
-- ==== Proof.lean ====
/-
  A 4096 x 512 by 512 x 65536 matrix product, computed by a kernel over 52 column blocks of width
  1280 (the last one overhanging the arrays by 1024 columns) with its operands narrowed to bf16
  before the matrix unit, against one host matrix product.

  Over the extended reals a change of float format is the identity, and both programs compute, at
  entry (r, c), the sum over the 512 contracted positions k of query(r, k) * queue(k, c): the kernel
  block by block, the reference at once.  A column of a product depends on the same column of the
  right operand only, so the unnamed words the last block's fetch leaves past the array's end never
  reach a column that is written back.  No finiteness of the inputs is used: the two sides are the
  same sum, term for term.

  The five claims: the kernel as printed runs to the end and leaves its arguments alone (nothing is
  said of its result); the idealized kernel and the idealized reference do too; the idealization
  rewrote nothing; and the two idealized programs end with equal results.
-/
import proofs.«146652_g85856396247097_cont_9to1c4b_318_28_alg».proof.Defs
import proofs.«146652_g85856396247097_cont_9to1c4b_318_28_alg».proof.Proof.Gen.Kernel
import proofs.«146652_g85856396247097_cont_9to1c4b_318_28_alg».proof.Proof.Gen.KernelIdeal
import proofs.«146652_g85856396247097_cont_9to1c4b_318_28_alg».proof.Proof.Gen.ReferenceIdeal
import proofs.«146652_g85856396247097_cont_9to1c4b_318_28_alg».proof.Proof.Gen.Pre_finite_inputs
import proofs.«146652_g85856396247097_cont_9to1c4b_318_28_alg».proof.Proof.KernelFrame
import proofs.«146652_g85856396247097_cont_9to1c4b_318_28_alg».proof.Proof.IdealValue
import proofs.«146652_g85856396247097_cont_9to1c4b_318_28_alg».proof.Proof.RefValue
import Idealize.ShloMosaic.Adequacy
import Idealize.ShloMosaic.Init

noncomputable section

namespace Cert.Proof

open Idealize.ShloMosaic Idealize.SL.Sem

/-- The kernel as printed runs, and its two argument arrays end as launched. -/
theorem frame_k : Cert.frame_Kernel := fun m ρ _ => Cert.Kernel.Hand.frame (F := Bits) m ρ

/-- The idealized kernel runs, and its two argument arrays end as launched: its value run with the
    result dropped. -/
theorem frame_ki : Cert.frame_KernelIdeal := fun m ρ _ =>
  (θ_run Cert.KernelIdeal.defs _ _).mono (fun _ h c => (h c).2) (Cert.KernelIdeal.Hand.run m ρ)

/-- The idealized reference runs, and its two argument arrays end as launched: its run with the
    result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the result at the
    product of the two argument arrays. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
